-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_v252) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x128 : Shape := ⟨2, ![65536, 128]⟩
abbrev S128x192 : Shape := ⟨2, ![128, 192]⟩
abbrev S128 : Shape := ⟨1, ![128]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S128x192 : S_.BroadcastsInDim S128x192 (![] : Fin 0 → Fin S128x192.rank)
  reducesTo_S128x192_S_d0_1 : S128x192.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S65536x64 .f32) (main_arg1 : FVec F S65536x128 .f32) (main_arg2 : FVec F S128x192 .f32) (main_arg3 : FVec F S128 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S128x192 .f32 := Host.absf main_arg2
  let main_cst_2 : FVec F S_ .f32 := constant S_ .f32 0x7F800000#32
  let main_v10 : FVec F S128x192 .f32 := broadcastInDim S128x192 ![] bcast_S_S128x192 main_cst_2
  let main_v11 : IVec S128x192 1 := cmpf .olt main_v9 main_v10
  let main_c_3 : IVec S_ 1 := constantI S_ 1 1#1
  let main_v12 : IVec S_ 1 := (fun x v => Host.reduce IntOp.andi x v reducesTo_S128x192_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S65536x64 : Shape := ⟨2, ![65536, 64]⟩
abbrev S65536x128 : Shape := ⟨2, ![65536, 128]⟩
abbrev S128x192 : Shape := ⟨2, ![128, 192]⟩
abbrev S128 : Shape := ⟨1, ![128]⟩
abbrev S128x64 : Shape := ⟨2, ![128, 64]⟩
abbrev S128x128 : Shape := ⟨2, ![128, 128]⟩
abbrev S64x128 : Shape := ⟨2, ![64, 128]⟩
abbrev S2048x64 : Shape := ⟨2, ![2048, 64]⟩
abbrev S2048x128 : Shape := ⟨2, ![2048, 128]⟩
abbrev S1x128 : Shape := ⟨2, ![1, 128]⟩

abbrev nBuf : Space → Nat
  | .hbm => 9
  | .vmem => 9
  | .smem => 0
  | _ => 0

abbrev bufTy : (tb : Table) → Fin (tcTables nBuf tb) → BufTy
  | .hbm, ⟨0, _⟩ => ⟨S65536x64, .f32⟩
  | .hbm, ⟨1, _⟩ => ⟨S65536x128, .f32⟩
  | .hbm, ⟨2, _⟩ => ⟨S128x192, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S64x128, .f32⟩
  | .hbm, ⟨7, _⟩ => ⟨S128x128, .f32⟩
  | .hbm, ⟨8, _⟩ => ⟨S65536x128, .f32⟩
  | .local _ .vmem, ⟨0, _⟩ => ⟨S2048x64, .f32⟩
  | .local _ .vmem, ⟨1, _⟩ => ⟨S2048x64, .f32⟩
  | .local _ .vmem, ⟨2, _⟩ => ⟨S2048x128, .f32⟩
  | .local _ .vmem, ⟨3, _⟩ => ⟨S2048x128, .f32⟩
  | .local _ .vmem, ⟨4, _⟩ => ⟨S64x128, .f32⟩
  | .local _ .vmem, ⟨5, _⟩ => ⟨S128x128, .f32⟩
  | .local _ .vmem, ⟨6, _⟩ => ⟨S128, .f32⟩
  | .local _ .vmem, ⟨7, _⟩ => ⟨S2048x128, .f32⟩
  | .local _ .vmem, ⟨8, _⟩ => ⟨S2048x128, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S128x192_S128x64_0_0 : S128x192.Slices ![0, 0] S128x64
  slices_S128x192_S128x128_0_64 : S128x192.Slices ![0, 64] S128x128
  transposes_S128x64_S64x128_1_0 : S128x64.Transposes [1, 0] S64x128
  transposes_S128x128_S128x128_1_0 : S128x128.Transposes [1, 0] S128x128
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2048x128_S2048x128_0_0 : ∀ a, (![0, 0] : Fin 2 → Nat) a + S2048x128.size a ≤ S2048x128.size a
  h_S2048x128 : 0 < S2048x128.numel
  dot_S2048x64_S64x128_S2048x128_1_0_0_1_n_n_wf : DotDims.WF S2048x64 S64x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S65536x128.size a
  hwx0_5 : ∀ i : grid0.Coords, EltTy.bits .f32 = 32 ∨ (Rect.block (s := S65536x128) S2048x128.size (cc0_transform_5 i) (hinb0_5 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x128 : Shape := ⟨2, ![65536, 128]⟩
abbrev S128x192 : Shape := ⟨2, ![128, 192]⟩
abbrev S128 : Shape := ⟨1, ![128]⟩
abbrev S128x64 : Shape := ⟨2, ![128, 64]⟩
abbrev S128x128 : Shape := ⟨2, ![128, 128]⟩
abbrev S64x128 : Shape := ⟨2, ![64, 128]⟩
abbrev S1x128 : Shape := ⟨2, ![1, 128]⟩
abbrev S_ : Shape := ⟨0, ![]⟩

abbrev nBuf : Space → Nat
  | .hbm => 311
  | .vmem => 0
  | .smem => 0
  | _ => 0

abbrev hbmTy0_0 (i : Nat) : BufTy := match i % 128 with
  | 0 => ⟨S65536x64, .f32⟩
  | 1 => ⟨S65536x128, .f32⟩
  | 2 => ⟨S128x192, .f32⟩
  | 3 => ⟨S128, .f32⟩
  | 4 => ⟨S128x64, .f32⟩
  | 5 => ⟨S128x128, .f32⟩
  | 6 => ⟨S64x128, .f32⟩
  | 7 => ⟨S65536x128, .f32⟩
  | 8 => ⟨S1x128, .f32⟩
  | 9 => ⟨S65536x128, .f32⟩
  | 10 => ⟨S65536x128, .f32⟩
  | 11 => ⟨S128x128, .f32⟩
  | 12 => ⟨S65536x128, .f32⟩
  | 13 => ⟨S65536x128, .f32⟩
  | 14 => ⟨S65536x128, .f32⟩
  | 15 => ⟨S_, .f32⟩
  | 16 => ⟨S65536x128, .f32⟩
  | 17 => ⟨S65536x128, .f32⟩
  | 18 => ⟨S_, .f32⟩
  | 19 => ⟨S65536x128, .f32⟩
  | 20 => ⟨S65536x128, .f32⟩
  | 21 => ⟨S65536x128, .f32⟩
  | 22 => ⟨S128x128, .f32⟩
  | 23 => ⟨S65536x128, .f32⟩
  | 24 => ⟨S65536x128, .f32⟩
  | 25 => ⟨S65536x128, .f32⟩
  | 26 => ⟨S_, .f32⟩
  | 27 => ⟨S65536x128, .f32⟩
  | 28 => ⟨S65536x128, .f32⟩
  | 29 => ⟨S_, .f32⟩
  | 30 => ⟨S65536x128, .f32⟩
  | 31 => ⟨S65536x128, .f32⟩
  | 32 => ⟨S65536x128, .f32⟩
  | 33 => ⟨S128x128, .f32⟩
  | 34 => ⟨S65536x128, .f32⟩
  | 35 => ⟨S65536x128, .f32⟩
  | 36 => ⟨S65536x128, .f32⟩
  | 37 => ⟨S_, .f32⟩
  | 38 => ⟨S65536x128, .f32⟩
  | 39 => ⟨S65536x128, .f32⟩
  | 40 => ⟨S65536x128, .f32⟩
  | 41 => ⟨S128x128, .f32⟩
  | 42 => ⟨S65536x128, .f32⟩
  | 43 => ⟨S65536x128, .f32⟩
  | 44 => ⟨S65536x128, .f32⟩
  | 45 => ⟨S_, .f32⟩
  | 46 => ⟨S65536x128, .f32⟩
  | 47 => ⟨S65536x128, .f32⟩
  | 48 => ⟨S_, .f32⟩
  | 49 => ⟨S65536x128, .f32⟩
  | 50 => ⟨S65536x128, .f32⟩
  | 51 => ⟨S65536x128, .f32⟩
  | 52 => ⟨S_, .f32⟩
  | 53 => ⟨S65536x128, .f32⟩
  | 54 => ⟨S65536x128, .f32⟩
  | 55 => ⟨S65536x128, .f32⟩
  | 56 => ⟨S65536x128, .f32⟩
  | 57 => ⟨S_, .f32⟩
  | 58 => ⟨S65536x128, .f32⟩
  | 59 => ⟨S65536x128, .f32⟩
  | 60 => ⟨S65536x128, .f32⟩
  | 61 => ⟨S128x128, .f32⟩
  | 62 => ⟨S65536x128, .f32⟩
  | 63 => ⟨S65536x128, .f32⟩
  | 64 => ⟨S65536x128, .f32⟩
  | 65 => ⟨S_, .f32⟩
  | 66 => ⟨S65536x128, .f32⟩
  | 67 => ⟨S65536x128, .f32⟩
  | 68 => ⟨S_, .f32⟩
  | 69 => ⟨S65536x128, .f32⟩
  | 70 => ⟨S65536x128, .f32⟩
  | 71 => ⟨S65536x128, .f32⟩
  | 72 => ⟨S128x128, .f32⟩
  | 73 => ⟨S65536x128, .f32⟩
  | 74 => ⟨S65536x128, .f32⟩
  | 75 => ⟨S65536x128, .f32⟩
  | 76 => ⟨S_, .f32⟩
  | 77 => ⟨S65536x128, .f32⟩
  | 78 => ⟨S65536x128, .f32⟩
  | 79 => ⟨S_, .f32⟩
  | 80 => ⟨S65536x128, .f32⟩
  | 81 => ⟨S65536x128, .f32⟩
  | 82 => ⟨S65536x128, .f32⟩
  | 83 => ⟨S128x128, .f32⟩
  | 84 => ⟨S65536x128, .f32⟩
  | 85 => ⟨S65536x128, .f32⟩
  | 86 => ⟨S65536x128, .f32⟩
  | 87 => ⟨S_, .f32⟩
  | 88 => ⟨S65536x128, .f32⟩
  | 89 => ⟨S65536x128, .f32⟩
  | 90 => ⟨S65536x128, .f32⟩
  | 91 => ⟨S128x128, .f32⟩
  | 92 => ⟨S65536x128, .f32⟩
  | 93 => ⟨S65536x128, .f32⟩
  | 94 => ⟨S65536x128, .f32⟩
  | 95 => ⟨S_, .f32⟩
  | 96 => ⟨S65536x128, .f32⟩
  | 97 => ⟨S65536x128, .f32⟩
  | 98 => ⟨S_, .f32⟩
  | 99 => ⟨S65536x128, .f32⟩
  | 100 => ⟨S65536x128, .f32⟩
  | 101 => ⟨S65536x128, .f32⟩
  | 102 => ⟨S_, .f32⟩
  | 103 => ⟨S65536x128, .f32⟩
  | 104 => ⟨S65536x128, .f32⟩
  | 105 => ⟨S65536x128, .f32⟩
  | 106 => ⟨S65536x128, .f32⟩
  | 107 => ⟨S_, .f32⟩
  | 108 => ⟨S65536x128, .f32⟩
  | 109 => ⟨S65536x128, .f32⟩
  | 110 => ⟨S65536x128, .f32⟩
  | 111 => ⟨S128x128, .f32⟩
  | 112 => ⟨S65536x128, .f32⟩
  | 113 => ⟨S65536x128, .f32⟩
  | 114 => ⟨S65536x128, .f32⟩
  | 115 => ⟨S_, .f32⟩
  | 116 => ⟨S65536x128, .f32⟩
  | 117 => ⟨S65536x128, .f32⟩
  | 118 => ⟨S_, .f32⟩
  | 119 => ⟨S65536x128, .f32⟩
  | 120 => ⟨S65536x128, .f32⟩
  | 121 => ⟨S65536x128, .f32⟩
  | 122 => ⟨S128x128, .f32⟩
  | 123 => ⟨S65536x128, .f32⟩
  | 124 => ⟨S65536x128, .f32⟩
  | 125 => ⟨S65536x128, .f32⟩
  | 126 => ⟨S_, .f32⟩
  | 127 => ⟨S65536x128, .f32⟩
  | _ => ⟨S65536x64, .f32⟩

abbrev hbmTy0_1 (i : Nat) : BufTy := match i % 128 with
  | 0 => ⟨S65536x128, .f32⟩
  | 1 => ⟨S_, .f32⟩
  | 2 => ⟨S65536x128, .f32⟩
  | 3 => ⟨S65536x128, .f32⟩
  | 4 => ⟨S65536x128, .f32⟩
  | 5 => ⟨S128x128, .f32⟩
  | 6 => ⟨S65536x128, .f32⟩
  | 7 => ⟨S65536x128, .f32⟩
  | 8 => ⟨S65536x128, .f32⟩
  | 9 => ⟨S_, .f32⟩
  | 10 => ⟨S65536x128, .f32⟩
  | 11 => ⟨S65536x128, .f32⟩
  | 12 => ⟨S65536x128, .f32⟩
  | 13 => ⟨S128x128, .f32⟩
  | 14 => ⟨S65536x128, .f32⟩
  | 15 => ⟨S65536x128, .f32⟩
  | 16 => ⟨S65536x128, .f32⟩
  | 17 => ⟨S_, .f32⟩
  | 18 => ⟨S65536x128, .f32⟩
  | 19 => ⟨S65536x128, .f32⟩
  | 20 => ⟨S_, .f32⟩
  | 21 => ⟨S65536x128, .f32⟩
  | 22 => ⟨S65536x128, .f32⟩
  | 23 => ⟨S65536x128, .f32⟩
  | 24 => ⟨S_, .f32⟩
  | 25 => ⟨S65536x128, .f32⟩
  | 26 => ⟨S65536x128, .f32⟩
  | 27 => ⟨S65536x128, .f32⟩
  | 28 => ⟨S65536x128, .f32⟩
  | 29 => ⟨S_, .f32⟩
  | 30 => ⟨S65536x128, .f32⟩
  | 31 => ⟨S65536x128, .f32⟩
  | 32 => ⟨S65536x128, .f32⟩
  | 33 => ⟨S128x128, .f32⟩
  | 34 => ⟨S65536x128, .f32⟩
  | 35 => ⟨S65536x128, .f32⟩
  | 36 => ⟨S65536x128, .f32⟩
  | 37 => ⟨S_, .f32⟩
  | 38 => ⟨S65536x128, .f32⟩
  | 39 => ⟨S65536x128, .f32⟩
  | 40 => ⟨S_, .f32⟩
  | 41 => ⟨S65536x128, .f32⟩
  | 42 => ⟨S65536x128, .f32⟩
  | 43 => ⟨S65536x128, .f32⟩
  | 44 => ⟨S128x128, .f32⟩
  | 45 => ⟨S65536x128, .f32⟩
  | 46 => ⟨S65536x128, .f32⟩
  | 47 => ⟨S65536x128, .f32⟩
  | 48 => ⟨S_, .f32⟩
  | 49 => ⟨S65536x128, .f32⟩
  | 50 => ⟨S65536x128, .f32⟩
  | 51 => ⟨S_, .f32⟩
  | 52 => ⟨S65536x128, .f32⟩
  | 53 => ⟨S65536x128, .f32⟩
  | 54 => ⟨S65536x128, .f32⟩
  | 55 => ⟨S128x128, .f32⟩
  | 56 => ⟨S65536x128, .f32⟩
  | 57 => ⟨S65536x128, .f32⟩
  | 58 => ⟨S65536x128, .f32⟩
  | 59 => ⟨S_, .f32⟩
  | 60 => ⟨S65536x128, .f32⟩
  | 61 => ⟨S65536x128, .f32⟩
  | 62 => ⟨S65536x128, .f32⟩
  | 63 => ⟨S128x128, .f32⟩
  | 64 => ⟨S65536x128, .f32⟩
  | 65 => ⟨S65536x128, .f32⟩
  | 66 => ⟨S65536x128, .f32⟩
  | 67 => ⟨S_, .f32⟩
  | 68 => ⟨S65536x128, .f32⟩
  | 69 => ⟨S65536x128, .f32⟩
  | 70 => ⟨S_, .f32⟩
  | 71 => ⟨S65536x128, .f32⟩
  | 72 => ⟨S65536x128, .f32⟩
  | 73 => ⟨S65536x128, .f32⟩
  | 74 => ⟨S_, .f32⟩
  | 75 => ⟨S65536x128, .f32⟩
  | 76 => ⟨S65536x128, .f32⟩
  | 77 => ⟨S65536x128, .f32⟩
  | 78 => ⟨S65536x128, .f32⟩
  | 79 => ⟨S_, .f32⟩
  | 80 => ⟨S65536x128, .f32⟩
  | 81 => ⟨S65536x128, .f32⟩
  | 82 => ⟨S65536x128, .f32⟩
  | 83 => ⟨S128x128, .f32⟩
  | 84 => ⟨S65536x128, .f32⟩
  | 85 => ⟨S65536x128, .f32⟩
  | 86 => ⟨S65536x128, .f32⟩
  | 87 => ⟨S_, .f32⟩
  | 88 => ⟨S65536x128, .f32⟩
  | 89 => ⟨S65536x128, .f32⟩
  | 90 => ⟨S_, .f32⟩
  | 91 => ⟨S65536x128, .f32⟩
  | 92 => ⟨S65536x128, .f32⟩
  | 93 => ⟨S65536x128, .f32⟩
  | 94 => ⟨S128x128, .f32⟩
  | 95 => ⟨S65536x128, .f32⟩
  | 96 => ⟨S65536x128, .f32⟩
  | 97 => ⟨S65536x128, .f32⟩
  | 98 => ⟨S_, .f32⟩
  | 99 => ⟨S65536x128, .f32⟩
  | 100 => ⟨S65536x128, .f32⟩
  | 101 => ⟨S_, .f32⟩
  | 102 => ⟨S65536x128, .f32⟩
  | 103 => ⟨S65536x128, .f32⟩
  | 104 => ⟨S65536x128, .f32⟩
  | 105 => ⟨S128x128, .f32⟩
  | 106 => ⟨S65536x128, .f32⟩
  | 107 => ⟨S65536x128, .f32⟩
  | 108 => ⟨S65536x128, .f32⟩
  | 109 => ⟨S_, .f32⟩
  | 110 => ⟨S65536x128, .f32⟩
  | 111 => ⟨S65536x128, .f32⟩
  | 112 => ⟨S65536x128, .f32⟩
  | 113 => ⟨S128x128, .f32⟩
  | 114 => ⟨S65536x128, .f32⟩
  | 115 => ⟨S65536x128, .f32⟩
  | 116 => ⟨S65536x128, .f32⟩
  | 117 => ⟨S_, .f32⟩
  | 118 => ⟨S65536x128, .f32⟩
  | 119 => ⟨S65536x128, .f32⟩
  | 120 => ⟨S_, .f32⟩
  | 121 => ⟨S65536x128, .f32⟩
  | 122 => ⟨S65536x128, .f32⟩
  | 123 => ⟨S65536x128, .f32⟩
  | 124 => ⟨S_, .f32⟩
  | 125 => ⟨S65536x128, .f32⟩
  | 126 => ⟨S65536x128, .f32⟩
  | 127 => ⟨S65536x128, .f32⟩
  | _ => ⟨S65536x64, .f32⟩

abbrev hbmTy0_2 (i : Nat) : BufTy := match i % 128 with
  | 0 => ⟨S65536x128, .f32⟩
  | 1 => ⟨S_, .f32⟩
  | 2 => ⟨S65536x128, .f32⟩
  | 3 => ⟨S65536x128, .f32⟩
  | 4 => ⟨S65536x128, .f32⟩
  | 5 => ⟨S128x128, .f32⟩
  | 6 => ⟨S65536x128, .f32⟩
  | 7 => ⟨S65536x128, .f32⟩
  | 8 => ⟨S65536x128, .f32⟩
  | 9 => ⟨S_, .f32⟩
  | 10 => ⟨S65536x128, .f32⟩
  | 11 => ⟨S65536x128, .f32⟩
  | 12 => ⟨S_, .f32⟩
  | 13 => ⟨S65536x128, .f32⟩
  | 14 => ⟨S65536x128, .f32⟩
  | 15 => ⟨S65536x128, .f32⟩
  | 16 => ⟨S128x128, .f32⟩
  | 17 => ⟨S65536x128, .f32⟩
  | 18 => ⟨S65536x128, .f32⟩
  | 19 => ⟨S65536x128, .f32⟩
  | 20 => ⟨S_, .f32⟩
  | 21 => ⟨S65536x128, .f32⟩
  | 22 => ⟨S65536x128, .f32⟩
  | 23 => ⟨S_, .f32⟩
  | 24 => ⟨S65536x128, .f32⟩
  | 25 => ⟨S65536x128, .f32⟩
  | 26 => ⟨S65536x128, .f32⟩
  | 27 => ⟨S128x128, .f32⟩
  | 28 => ⟨S65536x128, .f32⟩
  | 29 => ⟨S65536x128, .f32⟩
  | 30 => ⟨S65536x128, .f32⟩
  | 31 => ⟨S_, .f32⟩
  | 32 => ⟨S65536x128, .f32⟩
  | 33 => ⟨S65536x128, .f32⟩
  | 34 => ⟨S65536x128, .f32⟩
  | 35 => ⟨S128x128, .f32⟩
  | 36 => ⟨S65536x128, .f32⟩
  | 37 => ⟨S65536x128, .f32⟩
  | 38 => ⟨S65536x128, .f32⟩
  | 39 => ⟨S_, .f32⟩
  | 40 => ⟨S65536x128, .f32⟩
  | 41 => ⟨S65536x128, .f32⟩
  | 42 => ⟨S_, .f32⟩
  | 43 => ⟨S65536x128, .f32⟩
  | 44 => ⟨S65536x128, .f32⟩
  | 45 => ⟨S65536x128, .f32⟩
  | 46 => ⟨S_, .f32⟩
  | 47 => ⟨S65536x128, .f32⟩
  | 48 => ⟨S65536x128, .f32⟩
  | 49 => ⟨S65536x128, .f32⟩
  | 50 => ⟨S65536x128, .f32⟩
  | 51 => ⟨S_, .f32⟩
  | 52 => ⟨S65536x128, .f32⟩
  | 53 => ⟨S65536x128, .f32⟩
  | 54 => ⟨S65536x128, .f32⟩
  | _ => ⟨S65536x64, .f32⟩

abbrev hbmTy (i : Nat) : BufTy := match i / 128 with
  | 0 => hbmTy0_0 i
  | 1 => hbmTy0_1 i
  | 2 => hbmTy0_2 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_13 : Ref sig .tc := ⟨.hbm, 95, rfl⟩
abbrev main_v77 : Ref sig .tc := ⟨.hbm, 96, rfl⟩
abbrev main_v78 : Ref sig .tc := ⟨.hbm, 97, rfl⟩
abbrev main_cst_14 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_15 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_16 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_17 : Ref sig .tc := ⟨.hbm, 115, rfl⟩
abbrev main_v93 : Ref sig .tc := ⟨.hbm, 116, rfl⟩
abbrev main_v94 : Ref sig .tc := ⟨.hbm, 117, rfl⟩
abbrev main_cst_18 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_19 : Ref sig .tc := ⟨.hbm, 126, rfl⟩
abbrev main_v102 : Ref sig .tc := ⟨.hbm, 127, rfl⟩
abbrev main_v103 : Ref sig .tc := ⟨.hbm, 128, rfl⟩
abbrev main_cst_20 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_21 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_22 : Ref sig .tc := ⟨.hbm, 145, rfl⟩
abbrev main_v118 : Ref sig .tc := ⟨.hbm, 146, rfl⟩
abbrev main_v119 : Ref sig .tc := ⟨.hbm, 147, rfl⟩
abbrev main_cst_23 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_24 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_25 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_26 : Ref sig .tc := ⟨.hbm, 165, rfl⟩
abbrev main_v134 : Ref sig .tc := ⟨.hbm, 166, rfl⟩
abbrev main_v135 : Ref sig .tc := ⟨.hbm, 167, rfl⟩
abbrev main_cst_27 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_28 : Ref sig .tc := ⟨.hbm, 176, rfl⟩
abbrev main_v143 : Ref sig .tc := ⟨.hbm, 177, rfl⟩
abbrev main_v144 : Ref sig .tc := ⟨.hbm, 178, rfl⟩
abbrev main_cst_29 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_30 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_31 : Ref sig .tc := ⟨.hbm, 195, rfl⟩
abbrev main_v159 : Ref sig .tc := ⟨.hbm, 196, rfl⟩
abbrev main_v160 : Ref sig .tc := ⟨.hbm, 197, rfl⟩
abbrev main_cst_32 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_33 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_34 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_cst_35 : Ref sig .tc := ⟨.hbm, 215, rfl⟩
abbrev main_v175 : Ref sig .tc := ⟨.hbm, 216, rfl⟩
abbrev main_v176 : Ref sig .tc := ⟨.hbm, 217, rfl⟩
abbrev main_cst_36 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_cst_37 : Ref sig .tc := ⟨.hbm, 226, rfl⟩
abbrev main_v184 : Ref sig .tc := ⟨.hbm, 227, rfl⟩
abbrev main_v185 : Ref sig .tc := ⟨.hbm, 228, rfl⟩
abbrev main_cst_38 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_cst_39 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_cst_40 : Ref sig .tc := ⟨.hbm, 245, rfl⟩
abbrev main_v200 : Ref sig .tc := ⟨.hbm, 246, rfl⟩
abbrev main_v201 : Ref sig .tc := ⟨.hbm, 247, rfl⟩
abbrev main_cst_41 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_cst_42 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_43 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_cst_44 : Ref sig .tc := ⟨.hbm, 265, rfl⟩
abbrev main_v216 : Ref sig .tc := ⟨.hbm, 266, rfl⟩
abbrev main_v217 : Ref sig .tc := ⟨.hbm, 267, rfl⟩
abbrev main_cst_45 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_cst_46 : Ref sig .tc := ⟨.hbm, 276, rfl⟩
abbrev main_v225 : Ref sig .tc := ⟨.hbm, 277, rfl⟩
abbrev main_v226 : Ref sig .tc := ⟨.hbm, 278, rfl⟩
abbrev main_cst_47 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_cst_48 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_cst_49 : Ref sig .tc := ⟨.hbm, 295, rfl⟩
abbrev main_v241 : Ref sig .tc := ⟨.hbm, 296, rfl⟩
abbrev main_v242 : Ref sig .tc := ⟨.hbm, 297, rfl⟩
abbrev main_cst_50 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_cst_51 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_cst_52 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩

abbrev nD : Nat := 1
abbrev τ : Topo := Topo.v7x

variable {F : FTy → Type} [FloatOps F]

class Facts₀ : Prop where
  slices_S128x192_S128x64_0_0 : S128x192.Slices ![0, 0] S128x64
  slices_S128x192_S128x128_0_64 : S128x192.Slices ![0, 64] S128x128
  transposes_S128x64_S64x128_1_0 : S128x64.Transposes [1, 0] S64x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  transposes_S128x128_S128x128_1_0 : S128x128.Transposes [1, 0] S128x128
  bcast_S_S65536x128 : S_.BroadcastsInDim S65536x128 (![] : Fin 0 → Fin S65536x128.rank)
  dot_S65536x64_S64x128_S65536x128_1_0_0_1_n_n_wf : DotDims.WF S65536x64 S64x128 S65536x128 [1] [0] [0] [1] [] []
  dot_S65536x128_S128x128_S65536x128_1_0_0_1_n_n_wf : DotDims.WF S65536x128 S128x128 S65536x128 [1] [0] [0] [1] [] []

variable [Facts₀]

def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf

class Facts : Prop extends Facts₀ where

variable [Facts]
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«154721_j5050881540422_1_alg».proof.Proof.LibMatmul2
import proofs.«154721_j5050881540422_1_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«154721_j5050881540422_1_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.Rk4Spec.lean ====
/-
  The mathematics of the certificate, with no program in sight.

  A recurrent cell is integrated by the classical fourth-order Runge–Kutta rule, six steps of size `dt`.
  For one row of the batch, with input projection `xp` (constant over the six steps), recurrent weights `w`
  and state `s`, the slope is `dt · tanh (xp_q + ∑ₖ s_k · w_{k,q})`; one step forms the four slopes
  `k1 = slope s`, `k2 = slope (s + ½·k1)`, `k3 = slope (s + ½·k2)`, `k4 = slope (s + k3)` and moves the state to
  `s + (((k1 + 2·k2) + 2·k3) + k4) / 6`. Everything is read on the extended reals, with the constants kept as the
  f32 words both programs print. Rows never mix: row `r` of the result depends on row `r` of the input, row `r`
  of the state, and the weights — which is why a program that works on blocks of rows and one that works on the
  whole batch compute the same array.
-/
import Idealize.ShloMosaic.PureOps.Ideal
import Idealize.ShloMosaic.Lib.ValueIdx

noncomputable section

open scoped BigOperators

namespace Cert.Rk4

open Idealize.ShloMosaic Idealize.ShloMosaic.ValueIdx

/-- The step size, as the f32 word for 0.1. -/
abbrev dt : EReal := Ideal.ofBits .f32 0x3DCCCCCD#32
/-- One half. -/
abbrev half : EReal := Ideal.ofBits .f32 0x3F000000#32
/-- Two. -/
abbrev two : EReal := Ideal.ofBits .f32 0x40000000#32
/-- Six. -/
abbrev six : EReal := Ideal.ofBits .f32 0x40C00000#32

variable {n : ℕ}

/-- The slope of one row: `dt · tanh (xp_q + ∑ₖ s_k · w_{k,q})`. -/
def slope (xp : Fin n → EReal) (w : Fin n → Fin n → EReal) (s : Fin n → EReal) : Fin n → EReal :=
  fun q => dt * Ideal.tanh (xp q + ∑ k : Fin n, s k * w k q)

/-- The first slope, at the state itself. -/
def k1 (xp : Fin n → EReal) (w : Fin n → Fin n → EReal) (s : Fin n → EReal) : Fin n → EReal :=
  slope xp w s
/-- The second slope, at the state moved half a first slope. -/
def k2 (xp : Fin n → EReal) (w : Fin n → Fin n → EReal) (s : Fin n → EReal) : Fin n → EReal :=
  slope xp w fun j => s j + half * k1 xp w s j
/-- The third slope, at the state moved half a second slope. -/
def k3 (xp : Fin n → EReal) (w : Fin n → Fin n → EReal) (s : Fin n → EReal) : Fin n → EReal :=
  slope xp w fun j => s j + half * k2 xp w s j
/-- The fourth slope, at the state moved a whole third slope. -/
def k4 (xp : Fin n → EReal) (w : Fin n → Fin n → EReal) (s : Fin n → EReal) : Fin n → EReal :=
  slope xp w fun j => s j + k3 xp w s j

/-- One Runge–Kutta step of a row. -/
def rk4 (xp : Fin n → EReal) (w : Fin n → Fin n → EReal) (s : Fin n → EReal) : Fin n → EReal :=
  fun q => s q + Ideal.div (((k1 xp w s q + two * k2 xp w s q) + two * k3 xp w s q) + k4 xp w s q) six

/-- Six steps. -/
def flow (xp : Fin n → EReal) (w : Fin n → Fin n → EReal) (s : Fin n → EReal) : Fin n → EReal :=
  (rk4 xp w)^[6] s

/-- Row `p` of a matrix. -/
def row {A m : ℕ} {α : Type} (a : (⟨2, ![A, m]⟩ : Shape).Idx → α) (p : Fin A) : Fin m → α := fun j => a (ix2 p j)

/-- A matrix as a function of its two coordinates. -/
def mat {K m : ℕ} {α : Type} (a : (⟨2, ![K, m]⟩ : Shape).Idx → α) : Fin K → Fin m → α := fun k j => a (ix2 k j)

/-- If a map of matrices acts on each row by a map of rows, so do its iterates. -/
theorem row_iterate {A m : ℕ} {α : Type} (f : ((⟨2, ![A, m]⟩ : Shape).Idx → α) → ((⟨2, ![A, m]⟩ : Shape).Idx → α))
    (g : Fin A → (Fin m → α) → (Fin m → α)) (h : ∀ s p, row (f s) p = g p (row s p)) (k : ℕ) :
    ∀ s p, row (f^[k] s) p = (g p)^[k] (row s p) := by
  induction k with
  | zero => intro s p; rfl
  | succ k ih =>
    intro s p
    rw [Function.iterate_succ_apply, Function.iterate_succ_apply, ih (f s) p, h s p]

/-- The input projection of row `r`: `∑ₖ x_{r,k} · wx_{k,q} + b_q`. -/
def proj (x : (⟨2, ![65536, 64]⟩ : Shape).Idx → EReal) (wx : (⟨2, ![64, 128]⟩ : Shape).Idx → EReal)
    (b : (⟨1, ![128]⟩ : Shape).Idx → EReal) (r : Fin 65536) : Fin 128 → EReal :=
  fun q => (∑ k : Fin 64, x (ix2 r k) * wx (ix2 k q)) + b (ix1 q)

/-- The result array: row `r` is six steps from row `r` of the state, under row `r`'s input projection. -/
def G (x : (⟨2, ![65536, 64]⟩ : Shape).Idx → EReal) (s : (⟨2, ![65536, 128]⟩ : Shape).Idx → EReal)
    (wx : (⟨2, ![64, 128]⟩ : Shape).Idx → EReal) (ws : (⟨2, ![128, 128]⟩ : Shape).Idx → EReal)
    (b : (⟨1, ![128]⟩ : Shape).Idx → EReal) : (⟨2, ![65536, 128]⟩ : Shape).Idx → EReal :=
  fun i => flow (proj x wx b (i 0)) (mat ws) (row s (i 0)) (i 1)

theorem G_apply (x : (⟨2, ![65536, 64]⟩ : Shape).Idx → EReal) (s : (⟨2, ![65536, 128]⟩ : Shape).Idx → EReal)
    (wx : (⟨2, ![64, 128]⟩ : Shape).Idx → EReal) (ws : (⟨2, ![128, 128]⟩ : Shape).Idx → EReal)
    (b : (⟨1, ![128]⟩ : Shape).Idx → EReal) (r : Fin 65536) (q : Fin 128) :
    G x s wx ws b (ix2 r q) = flow (proj x wx b r) (mat ws) (row s r) q := rfl

end Cert.Rk4

end
-- ==== Proof.KernelStep.lean ====
/-
  One Runge–Kutta step of a block of 2048 rows, written with the kernel's own vector operations, and two facts
  about it.

  First, the kernel's arithmetic IS six such steps. The body's pure values are named in groups that do not follow the
  steps (a group ends in the middle of a step), so the identification is made group by group: the values of the first
  group compose to one step of the loaded state, those of the second to one step of that, the third likewise, the
  fourth and fifth groups together to two steps, and the last to the sixth. Each is an unfolding.

  Second, on the extended reals a step acts on every row by the row step of the specification: the product with the
  recurrent weights into the zero accumulator is, at (p, q), the sum over k of the row's entries times the weights'
  column; the change of float format before it is the identity; every other operation is entry by entry.
-/
import proofs.«154721_j5050881540422_1_alg».proof.Proof.Gen.KernelIdeal.Skeleton
import proofs.«154721_j5050881540422_1_alg».proof.Proof.LibEntryReads
import proofs.«154721_j5050881540422_1_alg».proof.Proof.LibAffineLayer
import proofs.«154721_j5050881540422_1_alg».proof.Proof.Rk4Spec
import Idealize.ShloMosaic.Lib.Pipeline.Value

noncomputable section

open scoped BigOperators

namespace Cert.KernelIdeal.Step

open Cert.KernelIdeal Cert.KernelIdeal.Gen
open Idealize.ShloMosaic Idealize.ShloMosaic.ValueIdx Cert.Rk4

variable {F : FTy → Type} [FloatOps F]

/-! ## A step of a block, in the kernel's operations -/

/-- The slope of a block: `dt · tanh (xp + u · w)`, the product taken after a change of float format. -/
def slopeB (xp : FVec F S2048x128 .f32) (w : FVec F S128x128 .bf16) (u : FVec F S2048x128 .f32) : FVec F S2048x128 .f32 :=
  mulf (broadcast S2048x128 (Scalar.ofBits .f32 0x3DCCCCCD#32))
    (tanh (addf xp (matmul dot_S2048x128_S128x128_S2048x128_1_0_0_1_n_n none (truncf .bf16 u bitsLt_bf16_f32) w
      (constant S2048x128 .f32 0x00000000#32))))

/-- The state moved half a slope. -/
def halfB (s k : FVec F S2048x128 .f32) : FVec F S2048x128 .f32 :=
  addf s (mulf (broadcast S2048x128 (Scalar.ofBits .f32 0x3F000000#32)) k)

def k1B (xp : FVec F S2048x128 .f32) (w : FVec F S128x128 .bf16) (s : FVec F S2048x128 .f32) : FVec F S2048x128 .f32 :=
  slopeB xp w s
def k2B (xp : FVec F S2048x128 .f32) (w : FVec F S128x128 .bf16) (s : FVec F S2048x128 .f32) : FVec F S2048x128 .f32 :=
  slopeB xp w (halfB s (k1B xp w s))
def k3B (xp : FVec F S2048x128 .f32) (w : FVec F S128x128 .bf16) (s : FVec F S2048x128 .f32) : FVec F S2048x128 .f32 :=
  slopeB xp w (halfB s (k2B xp w s))
def k4B (xp : FVec F S2048x128 .f32) (w : FVec F S128x128 .bf16) (s : FVec F S2048x128 .f32) : FVec F S2048x128 .f32 :=
  slopeB xp w (addf s (k3B xp w s))

/-- One step: `s + (((k1 + 2·k2) + 2·k3) + k4) / 6`. -/
def stepB (xp : FVec F S2048x128 .f32) (w : FVec F S128x128 .bf16) (s : FVec F S2048x128 .f32) : FVec F S2048x128 .f32 :=
  addf s (divf
    (addf (addf (addf (k1B xp w s) (mulf (broadcast S2048x128 (Scalar.ofBits .f32 0x40000000#32)) (k2B xp w s)))
      (mulf (broadcast S2048x128 (Scalar.ofBits .f32 0x40000000#32)) (k3B xp w s))) (k4B xp w s))
    (broadcast S2048x128 (Scalar.ofBits .f32 0x40C00000#32)))

/-! ## The kernel's named values compose to steps -/

/-- The first group's values compose to one step of the loaded state. -/
theorem first_step (v0 : Vec F S2048x64 .f32) (v2 : Vec F S64x128 .f32) (v6 : Vec F S128 .f32) (v10 : Vec F S128x128 .f32)
    (v13 : Vec F S2048x128 .f32) :
    k0_pay8 (k0_pay2 v0 v2 v6) (k0_pay3 v10) v13 (k0_pay4 v0 v2 v6 v10 v13) (k0_pay5 v0 v2 v6 v10 v13)
        (k0_pay6 v0 v2 v6 v10 v13) (k0_pay7 v0 v2 v6 v10 v13) (constant S2048x128 .f32 0x00000000#32)
      = stepB (k0_pay2 v0 v2 v6) (k0_pay3 v10) v13 := rfl

/-- The second group's compose to one step of the first's state. -/
theorem second_step (v9 : FVec F S2048x128 .f32) (v12 : FVec F S128x128 .bf16) (v13 : Vec F S2048x128 .f32)
    (v19 v28 v37 : FVec F S2048x128 .f32) (v39 : FVec F S2048x128 .bf16) (c : FVec F S2048x128 .f32) :
    k0_pay13 (k0_pay8 v9 v12 v13 v19 v28 v37 v39 c) (k0_pay9 v9 v12 v13 v19 v28 v37 v39 c)
        (k0_pay10 v9 v12 v13 v19 v28 v37 v39 c) (k0_pay11 v9 v12 v13 v19 v28 v37 v39 c)
        (k0_pay12 v9 v12 v13 v19 v28 v37 v39 c)
      = stepB v9 v12 (k0_pay8 v9 v12 v13 v19 v28 v37 v39 c) := rfl

/-- The third group's compose to one step of the second's state. -/
theorem third_step (v9 : FVec F S2048x128 .f32) (v12 : FVec F S128x128 .bf16) (v54 v60 v69 v78 v85 : FVec F S2048x128 .f32) :
    k0_pay20 (k0_pay13 v54 v60 v69 v78 v85) (k0_pay16 v9 v12 v54 v60 v69 v78 v85) (k0_pay17 v9 v12 v54 v60 v69 v78 v85)
        (k0_pay18 v9 v12 v54 v60 v69 v78 v85) (k0_pay19 (F := F))
      = stepB v9 v12 (k0_pay13 v54 v60 v69 v78 v85) := rfl

/-- The fourth and fifth groups' compose to two steps of the third's state. -/
theorem fourth_fifth_step (v9 : FVec F S2048x128 .f32) (v12 : FVec F S128x128 .bf16) (v95 v119 v126 v129 v130 : FVec F S2048x128 .f32) :
    k0_pay22 v9 v12 (k0_pay20 v95 v119 v126 v129 v130) (k0_pay21 v9 v12 v95 v119 v126 v129 v130)
      = stepB v9 v12 (stepB v9 v12 (k0_pay20 v95 v119 v126 v129 v130)) := rfl

/-- The last group's compose to one step of the fifth state. -/
theorem sixth_step (v9 : FVec F S2048x128 .f32) (v12 : FVec F S128x128 .bf16) (v136 v176 : FVec F S2048x128 .f32) :
    k0_pay1 v9 v12 (k0_pay22 v9 v12 v136 v176) (k0_pay23 v9 v12 v136 v176)
      = stepB v9 v12 (k0_pay22 v9 v12 v136 v176) := rfl

/-! ## On the extended reals a step acts row by row -/

/-- The slope of a block, row by row. -/
theorem slopeB_row (xp : FVec Ideal S2048x128 .f32) (w : FVec Ideal S128x128 .bf16) (u : FVec Ideal S2048x128 .f32)
    (p : Fin 2048) : row (slopeB xp w u) p = slope (row xp p) (mat w) (row u p) := by
  funext q
  show dt * Ideal.tanh (xp (ix2 p q)
      + matmul dot_S2048x128_S128x128_S2048x128_1_0_0_1_n_n none (truncf .bf16 u bitsLt_bf16_f32) w
          (constant S2048x128 .f32 0x00000000#32) (ix2 p q)) = _
  rw [Cert.Lib.matmul_plain_apply dot_S2048x128_S128x128_S2048x128_1_0_0_1_n_n
    dot_S2048x128_S128x128_S2048x128_1_0_0_1_n_n_wf rfl]
  rfl

/-- One step of a block, row by row. -/
theorem stepB_row (xp : FVec Ideal S2048x128 .f32) (w : FVec Ideal S128x128 .bf16) (s : FVec Ideal S2048x128 .f32)
    (p : Fin 2048) : row (stepB xp w s) p = rk4 (row xp p) (mat w) (row s p) := by
  have e1 : row (k1B xp w s) p = k1 (row xp p) (mat w) (row s p) := slopeB_row xp w s p
  have e2 : row (k2B xp w s) p = k2 (row xp p) (mat w) (row s p) := by
    refine (slopeB_row xp w (halfB s (k1B xp w s)) p).trans ?_
    show slope _ _ (fun j => row s p j + half * row (k1B xp w s) p j) = _
    rw [e1]; rfl
  have e3 : row (k3B xp w s) p = k3 (row xp p) (mat w) (row s p) := by
    refine (slopeB_row xp w (halfB s (k2B xp w s)) p).trans ?_
    show slope _ _ (fun j => row s p j + half * row (k2B xp w s) p j) = _
    rw [e2]; rfl
  have e4 : row (k4B xp w s) p = k4 (row xp p) (mat w) (row s p) := by
    refine (slopeB_row xp w (addf s (k3B xp w s)) p).trans ?_
    show slope _ _ (fun j => row s p j + row (k3B xp w s) p j) = _
    rw [e3]; rfl
  funext q
  show row s p q + Ideal.div (((row (k1B xp w s) p q + two * row (k2B xp w s) p q) + two * row (k3B xp w s) p q)
      + row (k4B xp w s) p q) six = _
  rw [e1, e2, e3, e4]; rfl

/-- Six steps of a block, row by row. -/
theorem flowB_row (xp : FVec Ideal S2048x128 .f32) (w : FVec Ideal S128x128 .bf16) (s : FVec Ideal S2048x128 .f32)
    (p : Fin 2048) : row ((stepB xp w)^[6] s) p = flow (row xp p) (mat w) (row s p) :=
  row_iterate (stepB xp w) (fun p => rk4 (row xp p) (mat w)) (fun s p => stepB_row xp w s p) 6 s p

/-! ## The block's input projection and weights, read -/

/-- The block's input projection at row `p`: the product of the input block with the input weights into the zero
    accumulator, plus the bias row repeated down the block. -/
theorem proj_row (v0 : FVec Ideal S2048x64 .f32) (v2 : FVec Ideal S64x128 .f32) (v6 : FVec Ideal S128 .f32) (p : Fin 2048) :
    row (k0_pay2 (F := Ideal) v0 v2 v6) p = fun q => (∑ k : Fin 64, v0 (ix2 p k) * v2 (ix2 k q)) + v6 (ix1 q) := by
  funext q
  show matmul dot_S2048x64_S64x128_S2048x128_1_0_0_1_n_n none (truncf .bf16 v0 bitsLt_bf16_f32)
        (truncf .bf16 (shapeCast S64x128 v2 shapeCasts_S64x128_S64x128) bitsLt_bf16_f32)
        (constant S2048x128 .f32 0x00000000#32) (ix2 p q)
      + broadcastTo S2048x128 (shapeCast S1x128 v6 shapeCasts_S128_S1x128) broadcasts_S1x128_S2048x128 (ix2 p q) = _
  rw [Cert.Lib.matmul_plain_apply dot_S2048x64_S64x128_S2048x128_1_0_0_1_n_n
    dot_S2048x64_S64x128_S2048x128_1_0_0_1_n_n_wf rfl,
    Cert.Lib.rowBroadcast_apply v6 shapeCasts_S128_S1x128 broadcasts_S1x128_S2048x128 p q,
    shapeCast_self v2 shapeCasts_S64x128_S64x128]
  rfl

/-- The recurrent weights as the body uses them are the loaded block. -/
theorem weights_mat (v10 : FVec Ideal S128x128 .f32) : mat (k0_pay3 (F := Ideal) v10) = mat v10 := by
  show mat (truncf .bf16 (shapeCast S128x128 v10 shapeCasts_S128x128_S128x128) bitsLt_bf16_f32) = _
  rw [shapeCast_self v10 shapeCasts_S128x128_S128x128]
  rfl

end Cert.KernelIdeal.Step

end
-- ==== Proof.KernelValue.lean ====
/-
  From blocks to the array: what the idealized kernel leaves in its result array.

  The body stores one value over the whole output block: six steps of the loaded state block, under the block's input
  projection. Read at row `p` of the block that is six row steps of row `p` of the state block. At grid point `t`
  the input and state blocks are rows `2048·t … 2048·t + 2047` of their arrays, the two weight blocks and the bias are
  the whole arrays, and the output block is rows `2048·t …` of the result: so point `t` writes back block `t` of the
  specification's array. The 32 blocks cover the 65536 rows (row `r` lies in block `r / 2048`), so the result array
  ends as the specification's array of the arguments — the two weight arrays being the transposed slices of the
  weight matrix that the host operations before the launch leave.
-/
import proofs.«154721_j5050881540422_1_alg».proof.Proof.KernelIdealFrame
import Idealize.ShloMosaic.Lib.Pipeline.Value
import proofs.«154721_j5050881540422_1_alg».proof.Proof.KernelStep
import Idealize.ShloMosaic.Lib.StableHlo.Run

set_option maxRecDepth 16384

noncomputable section

open scoped BigOperators

namespace Cert.KernelIdeal.Whole

open Cert.KernelIdeal Cert.KernelIdeal.Gen Cert.KernelIdeal.GenP Cert.KernelIdeal.Step
open Idealize.ShloMosaic Idealize.ShloMosaic.TcCoe Idealize.SL.Sem Idealize.ShloMosaic.ValueIdx Cert.Rk4
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-! ## The stored block is six steps of the state block -/

section
variable {F : FTy → Type} [FloatOps F]

/-- What the body leaves in the output block: six steps of the loaded state block under the block's input projection
    and the recurrent weights as loaded. -/
theorem out_eq (x0 : Vec F S2048x64 .f32) (x1 : Vec F S2048x128 .f32) (x2 : Vec F S64x128 .f32) (x3 : Vec F S128x128 .f32)
    (x4 : Vec F S128 .f32) :
    out0_5 x0 x1 x2 x3 x4 = (stepB (k0_pay2 x0 x2 x4) (k0_pay3 x3))^[6] x1 := by
  unfold out0_5
  rw [View.canon_unit_zero hz2]
  simp only [View.ld_unit_zero (S := S2048x64) hz2, View.ld_unit_zero (S := S2048x128) hz2,
    View.ld_unit_zero (S := S64x128) hz2, View.ld_unit_zero (S := S128x128) hz2, View.ld_unit_zero (S := S128) hz1]
  rw [sixth_step, fourth_fifth_step, third_step, second_step, first_step]
  rfl

end

/-- The stored block at (p, q): six row steps of row `p` of the state block. -/
theorem block_apply (x0 : Vec Ideal S2048x64 .f32) (x1 : Vec Ideal S2048x128 .f32) (x2 : Vec Ideal S64x128 .f32)
    (x3 : Vec Ideal S128x128 .f32) (x4 : Vec Ideal S128 .f32) (p : Fin 2048) (q : Fin 128) :
    out0_5 x0 x1 x2 x3 x4 (ix2 p q)
      = flow (fun j => (∑ k : Fin 64, x0 (ix2 p k) * x2 (ix2 k j)) + x4 (ix1 j)) (mat x3) (row x1 p) q := by
  rw [out_eq]
  have h := flowB_row (k0_pay2 x0 x2 x4) (k0_pay3 x3) x1 p
  rw [proj_row, weights_mat] at h
  exact congrFun h q

/-- The stored block at (p, q) is the specification's array at (r, q), when row `p` of the input and state blocks are
    row `r` of their arrays and the weight and bias blocks are the whole arrays. -/
theorem point_eq (X : (⟨2, ![65536, 64]⟩ : Shape).Idx → EReal) (S : (⟨2, ![65536, 128]⟩ : Shape).Idx → EReal)
    (WX : (⟨2, ![64, 128]⟩ : Shape).Idx → EReal) (WS : (⟨2, ![128, 128]⟩ : Shape).Idx → EReal)
    (B : (⟨1, ![128]⟩ : Shape).Idx → EReal)
    (x0 : Vec Ideal S2048x64 .f32) (x1 : Vec Ideal S2048x128 .f32) (x2 : Vec Ideal S64x128 .f32)
    (x3 : Vec Ideal S128x128 .f32) (x4 : Vec Ideal S128 .f32) (p : Fin 2048) (q : Fin 128) (r : Fin 65536)
    (h0 : ∀ k : Fin 64, x0 (ix2 p k) = X (ix2 r k)) (h1 : ∀ k : Fin 128, x1 (ix2 p k) = S (ix2 r k))
    (h2 : x2 = WX) (h3 : x3 = WS) (h4 : x4 = B) :
    out0_5 x0 x1 x2 x3 x4 (ix2 p q) = G X S WX WS B (ix2 r q) := by
  subst h2 h3 h4
  rw [block_apply, G_apply]
  have e1 : (fun j => (∑ k : Fin 64, x0 (ix2 p k) * x2 (ix2 k j)) + x4 (ix1 j)) = proj X x2 x4 r := by
    funext j
    show _ = (∑ k : Fin 64, X (ix2 r k) * x2 (ix2 k j)) + x4 (ix1 j)
    congr 1
    exact Finset.sum_congr rfl fun k _ => by rw [h0 k]
  have e2 : row x1 p = row S r := funext fun k => h1 k
  rw [e1, e2]

/-! ## The input blocks at a grid point -/

variable (m : (ℓ : Loc nD τ sig) → Buf (Elt Ideal) ℓ) (ρ : Dev nD → PrngReg)

/-- The printed index maps over the grid: the input, state and output blocks at point `t` are block row `t`; the
    weights and the bias do not move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The input block at point `t` is rows `2048·t …` of the input array. -/
theorem iblk0_apply (c : Dev nD) (t : Fin cfg0.N) (x : S2048x64.Idx) (k : S65536x64.Idx)
    (hk0 : (k 0).val = 2048 * t.val + (x 0).val) (hk1 : (k 1).val = (x 1).val) :
    (iblk m c 0 t : Vec Ideal S2048x64 .f32) x = (V m c main_arg0 : S65536x64.Idx → Elt Ideal .f32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 2048 + 1 * (x 0).val = (k 0).val; rw [e0, hk0]; omega
  | ⟨1, _⟩ => show win0_0.index t 1 * 64 + 1 * (x 1).val = (k 1).val; rw [e1, hk1]; omega

/-- The state block at point `t` is rows `2048·t …` of the state array. -/
theorem iblk1_apply (c : Dev nD) (t : Fin cfg0.N) (x : S2048x128.Idx) (k : S65536x128.Idx)
    (hk0 : (k 0).val = 2048 * t.val + (x 0).val) (hk1 : (k 1).val = (x 1).val) :
    (iblk m c 1 t : Vec Ideal S2048x128 .f32) x = (V m c main_arg1 : S65536x128.Idx → Elt Ideal .f32) k := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 2048 + 1 * (x 0).val = (k 0).val; rw [e0, hk0]; omega
  | ⟨1, _⟩ => show win0_1.index t 1 * 128 + 1 * (x 1).val = (k 1).val; rw [e1, hk1]; omega

/-- The input-weight block at every point is the whole array. -/
theorem iblk2_eq (c : Dev nD) (t : Fin cfg0.N) :
    (iblk m c 2 t : Vec Ideal S64x128 .f32) = (V m c main_v2 : S64x128.Idx → Elt Ideal .f32) := by
  obtain ⟨-, -, -, -, e0, e1, -⟩ := idx_facts t
  funext x
  unfold iblk
  rw [View.read_apply]
  show V m c main_v2 _ = V m c main_v2 _
  congr 1
  funext a
  apply Fin.ext
  match a with
  | ⟨0, _⟩ => show win0_2.index t 0 * 64 + 1 * (x 0).val = (x 0).val; rw [e0]; omega
  | ⟨1, _⟩ => show win0_2.index t 1 * 128 + 1 * (x 1).val = (x 1).val; rw [e1]; omega

/-- The recurrent-weight block at every point is the whole array. -/
theorem iblk3_eq (c : Dev nD) (t : Fin cfg0.N) :
    (iblk m c 3 t : Vec Ideal S128x128 .f32) = (V m c main_v3 : S128x128.Idx → Elt Ideal .f32) := by
  obtain ⟨-, -, -, -, -, -, e0, e1, -⟩ := idx_facts t
  funext x
  unfold iblk
  rw [View.read_apply]
  show V m c main_v3 _ = V m c main_v3 _
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The bias block at every point is the whole vector. -/
theorem iblk4_eq (c : Dev nD) (t : Fin cfg0.N) :
    (iblk m c 4 t : Vec Ideal S128 .f32) = (V m c main_arg3 : S128.Idx → Elt Ideal .f32) := by
  obtain ⟨-, -, -, -, -, -, -, -, e0, -⟩ := idx_facts t
  funext x
  unfold iblk
  rw [View.read_apply]
  show V m c main_arg3 _ = V m c main_arg3 _
  congr 1
  funext a
  apply Fin.ext
  match a with
  | ⟨0, _⟩ => show win0_4.index t 0 * 128 + 1 * (x 0).val = (x 0).val; rw [e0]; omega

/-! ## The write-back, the cover and the array -/

/-- The specification's array of the arrays as the launch finds them. -/
def Garr (c : Dev nD) : S65536x128.Idx → Elt Ideal .f32 :=
  G (V m c main_arg0) (V m c main_arg1) (V m c main_v2) (V m c main_v3) (V m c main_arg3)

/-- WHAT POINT `t` WRITES BACK is block `t` of the specification's array. -/
theorem flushed_eq (c : Dev nD) (t : Fin cfg0.N) :
    (dats m 0 c).flushed 5 t = ((cfg0.win 5).blk t).view.read (Elt Ideal) (Garr m c) := by
  show (cfg0.win 5).cut (grid0.coords t) ((dats m 0 c).after 5 t) = _
  rw [after0_5]
  obtain ⟨-, -, -, -, -, -, -, -, -, e0, e1⟩ := idx_facts t
  have ht : t.val < 32 := lt_of_lt_of_eq t.isLt (show cfg0.N = 32 from N_0)
  funext j
  obtain ⟨p, q, rfl⟩ : ∃ (p : Fin 2048) (q : Fin 128), j = ix2 p q := ⟨j 0, j 1, eq_ix2 j⟩
  have hemb : ((cfg0.win 5).blk t).view.emb (ix2 p q) = ix2 (⟨2048 * t.val + p.val, by omega⟩ : Fin 65536) q := by
    funext a
    apply Fin.ext
    match a with
    | ⟨0, _⟩ => show win0_5.index t 0 * 2048 + 1 * p.val = 2048 * t.val + p.val; rw [e0]; omega
    | ⟨1, _⟩ => show win0_5.index t 1 * 128 + 1 * q.val = q.val; rw [e1]; omega
  show out0_5 (iblk m c 0 t) (iblk m c 1 t) (iblk m c 2 t) (iblk m c 3 t) (iblk m c 4 t) (ix2 p q)
      = Garr m c (((cfg0.win 5).blk t).view.emb (ix2 p q))
  rw [hemb]
  exact point_eq (V m c main_arg0) (V m c main_arg1) (V m c main_v2) (V m c main_v3) (V m c main_arg3)
    (iblk m c 0 t) (iblk m c 1 t) (iblk m c 2 t) (iblk m c 3 t) (iblk m c 4 t) p q ⟨2048 * t.val + p.val, by omega⟩
    (fun k => iblk0_apply m c t (ix2 p k) (ix2 ⟨2048 * t.val + p.val, by omega⟩ k) rfl rfl)
    (fun k => iblk1_apply m c t (ix2 p k) (ix2 ⟨2048 * t.val + p.val, by omega⟩ k) rfl rfl)
    (iblk2_eq m c t) (iblk3_eq m c t) (iblk4_eq m c t)

/-- An index of the result array is in point `t`'s block iff each coordinate is in the block's range on its axis. -/
theorem mem_blk (t : Fin cfg0.N) (i : S65536x128.Idx) :
    i ∈ ((cfg0.win 5).blk t).view.set ↔ ∀ a : Fin 2, win0_5.index t a * S2048x128.size a ≤ (i a).val
      ∧ (i a).val < win0_5.index t a * S2048x128.size a + S2048x128.size a := by
  show i ∈ ((View.whole main_v4).slice (win0_5.rect t)).set ↔ _
  rw [View.set_slice_whole, Rect.mem_set_unit]
  exact Iff.rfl

/-- Every index of the result array lies in the block of the point its row selects. -/
theorem cover (i : S65536x128.Idx) :
    ∃ t : Fin cfg0.N, (cfg0.win 5).flush t = true ∧ i ∈ ((cfg0.win 5).blk t).view.set := by
  have hi0 : (i 0).val < 65536 := (i 0).isLt
  have hi1 : (i 1).val < 128 := (i 1).isLt
  have hN : cfg0.N = 32 := N_0
  let t : Fin cfg0.N := ⟨(i 0).val / 2048, by rw [hN]; omega⟩
  obtain ⟨-, -, -, -, -, -, -, -, -, e0, e1⟩ := idx_facts t
  have htv : t.val = (i 0).val / 2048 := rfl
  refine ⟨t, flush0_5 t, ?_⟩
  rw [mem_blk]
  intro a
  match a with
  | ⟨0, _⟩ => show win0_5.index t 0 * 2048 ≤ (i 0).val ∧ (i 0).val < win0_5.index t 0 * 2048 + 2048; rw [e0, htv]; omega
  | ⟨1, _⟩ => show win0_5.index t 1 * 128 ≤ (i 1).val ∧ (i 1).val < win0_5.index t 1 * 128 + 128; rw [e1]; omega

/-- THE RESULT ARRAY after the run is the specification's array of the arrays as the launch finds them. -/
theorem final (c : Dev nD) : (dats m 0 c).arrAt 5 cfg0.N = Garr m c :=
  (dats m 0 c).arrAt_eq_of_cover 5 (Garr m c) (fun t _ => flushed_eq m c t) cover

/-! ## The arrays the launch finds -/

/-- The input weights the launch finds: the transposed left slice of the weight matrix. -/
theorem V_main_v2 (c : Dev nD) :
    (V m c main_v2 : S64x128.Idx → Elt Ideal .f32)
      = transpose S64x128 [1, 0] (extractStridedSlice S128x64 ![0, 0] (m ((c : Thread nD τ).loc main_arg2)) slices_S128x192_S128x64_0_0)
          transposes_S128x64_S64x128_1_0 := by
  dsimp only [V, hostOps0]
  after_results

/-- The recurrent weights the launch finds: the transposed right slice of the weight matrix. -/
theorem V_main_v3 (c : Dev nD) :
    (V m c main_v3 : S128x128.Idx → Elt Ideal .f32)
      = transpose S128x128 [1, 0] (extractStridedSlice S128x128 ![0, 64] (m ((c : Thread nD τ).loc main_arg2)) slices_S128x192_S128x128_0_64)
          transposes_S128x128_S128x128_1_0 := by
  dsimp only [V, hostOps0]
  after_results

/-- The specification's array of the ARGUMENTS as launched. -/
def Gm (c : Dev nD) : S65536x128.Idx → Elt Ideal .f32 :=
  G (m ((c : Thread nD τ).loc main_arg0)) (m ((c : Thread nD τ).loc main_arg1))
    (transpose S64x128 [1, 0] (extractStridedSlice S128x64 ![0, 0] (m ((c : Thread nD τ).loc main_arg2)) slices_S128x192_S128x64_0_0)
      transposes_S128x64_S64x128_1_0)
    (transpose S128x128 [1, 0] (extractStridedSlice S128x128 ![0, 64] (m ((c : Thread nD τ).loc main_arg2)) slices_S128x192_S128x128_0_64)
      transposes_S128x128_S128x128_1_0)
    (m ((c : Thread nD τ).loc main_arg3))

theorem Garr_eq (c : Dev nD) : Garr m c = Gm m c := by
  unfold Garr Gm
  rw [V_main_v2, V_main_v3, V_main_arg0, V_main_arg1, V_main_arg3]

/-- The run, read off the frame run's post: the result array (the output window's) at the specification's array of the
    arguments; each staged argument as launched (an input window's array is never written back), the weight matrix —
    which no window stages — as the launch's other buffers are left. -/
theorem run : θ_run defs (onTc (τ := τ) (main (F := Ideal))) ⟨m, fun _ => 0, ρ⟩ fun r => ∀ c : Dev nD,
      r.2.mem ((c : Thread nD τ).loc main_v4) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans ((final m c).trans (Garr_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c)))⟩)
    (run_main m ρ)

end Cert.KernelIdeal.Whole

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«154721_j5050881540422_1_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.RefStep.lean ====
/-
  One Runge–Kutta step of the whole batch, written with the reference's own host operations, and two facts about it.

  First, the reference's run IS six such steps: the run names the state after each step, and each named state is one
  step of the one before it, with the same input projection and the same recurrent weights (the transposed slice of
  the weight matrix) throughout. Each is an unfolding.

  Second, on the extended reals a step acts on every row by the row step of the specification: the host's product
  with the recurrent weights is, at (r, q), the sum over k of the row's entries times the weights' column; a scalar
  constant repeated over the array reads the constant everywhere; every other operation is entry by entry.
-/
import proofs.«154721_j5050881540422_1_alg».proof.Proof.Gen.ReferenceIdeal.Run
import proofs.«154721_j5050881540422_1_alg».proof.Proof.LibEntryReads
import proofs.«154721_j5050881540422_1_alg».proof.Proof.LibHostReads
import proofs.«154721_j5050881540422_1_alg».proof.Proof.Rk4Spec

noncomputable section

open scoped BigOperators

namespace Cert.ReferenceIdeal.Step

open Cert.ReferenceIdeal Cert.ReferenceIdeal.Gen Cert.ReferenceIdeal.Value
open Idealize.ShloMosaic Idealize.ShloMosaic.TcCoe Idealize.SL.Sem Idealize.ShloMosaic.ValueIdx Idealize.ShloMosaic.StableHlo Cert.Rk4

variable {F : FTy → Type} [FloatOps F]

/-! ## A step of the batch, in the host's operations -/

/-- A scalar constant repeated over the batch. -/
def cH (w : BitVec 32) : FVec F S65536x128 .f32 :=
  broadcastInDim S65536x128 ![] bcast_S_S65536x128 (constant S_ .f32 w)

/-- The slope of the batch: `dt · tanh (xp + u · wT)`. -/
def slopeH (xp : FVec F S65536x128 .f32) (wT : FVec F S128x128 .f32) (u : FVec F S65536x128 .f32) : FVec F S65536x128 .f32 :=
  mulf (cH 0x3DCCCCCD#32)
    (Host.tanh (addf xp (Host.dotGeneral dot_S65536x128_S128x128_S65536x128_1_0_0_1_n_n none u wT)))

/-- The state moved half a slope. -/
def halfH (s k : FVec F S65536x128 .f32) : FVec F S65536x128 .f32 := addf s (mulf (cH 0x3F000000#32) k)

def k1H (xp : FVec F S65536x128 .f32) (wT : FVec F S128x128 .f32) (s : FVec F S65536x128 .f32) : FVec F S65536x128 .f32 :=
  slopeH xp wT s
def k2H (xp : FVec F S65536x128 .f32) (wT : FVec F S128x128 .f32) (s : FVec F S65536x128 .f32) : FVec F S65536x128 .f32 :=
  slopeH xp wT (halfH s (k1H xp wT s))
def k3H (xp : FVec F S65536x128 .f32) (wT : FVec F S128x128 .f32) (s : FVec F S65536x128 .f32) : FVec F S65536x128 .f32 :=
  slopeH xp wT (halfH s (k2H xp wT s))
def k4H (xp : FVec F S65536x128 .f32) (wT : FVec F S128x128 .f32) (s : FVec F S65536x128 .f32) : FVec F S65536x128 .f32 :=
  slopeH xp wT (addf s (k3H xp wT s))

/-- One step: `s + (((k1 + 2·k2) + 2·k3) + k4) / 6`. -/
def stepH (xp : FVec F S65536x128 .f32) (wT : FVec F S128x128 .f32) (s : FVec F S65536x128 .f32) : FVec F S65536x128 .f32 :=
  addf s (Host.divf
    (addf (addf (addf (k1H xp wT s) (mulf (cH 0x40000000#32) (k2H xp wT s))) (mulf (cH 0x40000000#32) (k3H xp wT s)))
      (k4H xp wT s))
    (cH 0x40C00000#32))

/-! ## The reference's named states are steps of one another -/

/-- The recurrent weights the reference multiplies by: the transposed right slice of the weight matrix. -/
def wsT (V0 : Valuation τ sig (Elt F)) : FVec F S128x128 .f32 :=
  transpose S128x128 [1, 0] (res_main_v1 V0) transposes_S128x128_S128x128_1_0

theorem state1 (V0 : Valuation τ sig (Elt F)) :
    res_main_v47 V0 = stepH (res_main_v6 V0) (wsT V0) (V0 (Proc.devRef .tc main_arg1)) := rfl
theorem state2 (V0 : Valuation τ sig (Elt F)) :
    res_main_v88 V0 = stepH (res_main_v6 V0) (wsT V0) (res_main_v47 V0) := rfl
theorem state3 (V0 : Valuation τ sig (Elt F)) :
    res_main_v129 V0 = stepH (res_main_v6 V0) (wsT V0) (res_main_v88 V0) := rfl
theorem state4 (V0 : Valuation τ sig (Elt F)) :
    res_main_v170 V0 = stepH (res_main_v6 V0) (wsT V0) (res_main_v129 V0) := rfl
theorem state5 (V0 : Valuation τ sig (Elt F)) :
    res_main_v211 V0 = stepH (res_main_v6 V0) (wsT V0) (res_main_v170 V0) := rfl

/-- Six steps from the state argument reach one step past the fifth named state. -/
theorem six_steps (V0 : Valuation τ sig (Elt F)) :
    stepH (res_main_v6 V0) (wsT V0) (res_main_v211 V0)
      = (stepH (res_main_v6 V0) (wsT V0))^[6] (V0 (Proc.devRef .tc main_arg1)) := by
  rw [state5, state4, state3, state2, state1]
  rfl

/-! ## On the extended reals a step acts row by row -/

theorem cH_apply (w : BitVec 32) (i : S65536x128.Idx) : cH (F := Ideal) w i = Ideal.ofBits .f32 w :=
  Cert.Lib.bcast_scalar_apply bcast_S_S65536x128 w i

/-- The slope of the batch, row by row. -/
theorem slopeH_row (xp : FVec Ideal S65536x128 .f32) (wT : FVec Ideal S128x128 .f32) (u : FVec Ideal S65536x128 .f32)
    (r : Fin 65536) : row (slopeH xp wT u) r = slope (row xp r) (mat wT) (row u r) := by
  funext q
  show cH (F := Ideal) 0x3DCCCCCD#32 (ix2 r q) * Ideal.tanh (xp (ix2 r q)
      + Host.dotGeneral dot_S65536x128_S128x128_S65536x128_1_0_0_1_n_n none u wT (ix2 r q)) = _
  rw [cH_apply, Cert.Lib.dotGeneral_plain_apply dot_S65536x128_S128x128_S65536x128_1_0_0_1_n_n
    dot_S65536x128_S128x128_S65536x128_1_0_0_1_n_n_wf rfl]
  rfl

/-- One step of the batch, row by row. -/
theorem stepH_row (xp : FVec Ideal S65536x128 .f32) (wT : FVec Ideal S128x128 .f32) (s : FVec Ideal S65536x128 .f32)
    (r : Fin 65536) : row (stepH xp wT s) r = rk4 (row xp r) (mat wT) (row s r) := by
  have e1 : row (k1H xp wT s) r = k1 (row xp r) (mat wT) (row s r) := slopeH_row xp wT s r
  have e2 : row (k2H xp wT s) r = k2 (row xp r) (mat wT) (row s r) := by
    refine (slopeH_row xp wT (halfH s (k1H xp wT s)) r).trans ?_
    have : row (halfH s (k1H xp wT s)) r = fun j => row s r j + half * row (k1H xp wT s) r j := by
      funext j
      show s (ix2 r j) + cH (F := Ideal) 0x3F000000#32 (ix2 r j) * k1H xp wT s (ix2 r j) = _
      rw [cH_apply]; rfl
    rw [this, e1]; rfl
  have e3 : row (k3H xp wT s) r = k3 (row xp r) (mat wT) (row s r) := by
    refine (slopeH_row xp wT (halfH s (k2H xp wT s)) r).trans ?_
    have : row (halfH s (k2H xp wT s)) r = fun j => row s r j + half * row (k2H xp wT s) r j := by
      funext j
      show s (ix2 r j) + cH (F := Ideal) 0x3F000000#32 (ix2 r j) * k2H xp wT s (ix2 r j) = _
      rw [cH_apply]; rfl
    rw [this, e2]; rfl
  have e4 : row (k4H xp wT s) r = k4 (row xp r) (mat wT) (row s r) := by
    refine (slopeH_row xp wT (addf s (k3H xp wT s)) r).trans ?_
    show slope _ _ (fun j => row s r j + row (k3H xp wT s) r j) = _
    rw [e3]; rfl
  funext q
  show row s r q + Ideal.div (((row (k1H xp wT s) r q + cH (F := Ideal) 0x40000000#32 (ix2 r q) * row (k2H xp wT s) r q)
      + cH (F := Ideal) 0x40000000#32 (ix2 r q) * row (k3H xp wT s) r q) + row (k4H xp wT s) r q)
      (cH (F := Ideal) 0x40C00000#32 (ix2 r q)) = _
  rw [cH_apply, cH_apply, e1, e2, e3, e4]; rfl

/-- Six steps of the batch, row by row. -/
theorem flowH_row (xp : FVec Ideal S65536x128 .f32) (wT : FVec Ideal S128x128 .f32) (s : FVec Ideal S65536x128 .f32)
    (r : Fin 65536) : row ((stepH xp wT)^[6] s) r = flow (row xp r) (mat wT) (row s r) :=
  row_iterate (stepH xp wT) (fun r => rk4 (row xp r) (mat wT)) (fun s r => stepH_row xp wT s r) 6 s r

/-! ## The input projection, read -/

/-- The input weights the reference multiplies by: the transposed left slice of the weight matrix. -/
def wxT (V0 : Valuation τ sig (Elt F)) : FVec F S64x128 .f32 :=
  transpose S64x128 [1, 0] (extractStridedSlice S128x64 ![0, 0] (V0 (Proc.devRef .tc main_arg2)) slices_S128x192_S128x64_0_0)
    transposes_S128x64_S64x128_1_0

/-- The reference's input projection at row `r`: the host's product of the inputs with the input weights, plus
    the bias made a row and repeated down the batch. -/
theorem proj_row (V0 : Valuation τ sig (Elt Ideal)) (r : Fin 65536) :
    row (res_main_v6 V0) r
      = proj (V0 (Proc.devRef .tc main_arg0)) (wxT V0) (V0 (Proc.devRef .tc main_arg3)) r := by
  funext q
  show Host.dotGeneral dot_S65536x64_S64x128_S65536x128_1_0_0_1_n_n none (V0 (Proc.devRef .tc main_arg0)) (wxT V0) (ix2 r q)
      + broadcastInDim S65536x128 ![0, 1] bcast_S1x128_S65536x128_0_1
          (broadcastInDim S1x128 ![1] bcast_S128_S1x128_1 (V0 (Proc.devRef .tc main_arg3))) (ix2 r q) = _
  rw [Cert.Lib.dotGeneral_plain_apply dot_S65536x64_S64x128_S65536x128_1_0_0_1_n_n
    dot_S65536x64_S64x128_S65536x128_1_0_0_1_n_n_wf rfl,
    Cert.Lib.bcast_vec_rows_apply (V0 (Proc.devRef .tc main_arg3)) bcast_S128_S1x128_1 bcast_S1x128_S65536x128_0_1 r q]
  rfl

/-- THE REFERENCE'S RESULT: one step past the fifth named state is the specification's array of the arguments. -/
theorem result_eq (V0 : Valuation τ sig (Elt Ideal)) :
    stepH (res_main_v6 V0) (wsT V0) (res_main_v211 V0)
      = G (V0 (Proc.devRef .tc main_arg0)) (V0 (Proc.devRef .tc main_arg1)) (wxT V0) (wsT V0)
          (V0 (Proc.devRef .tc main_arg3)) := by
  rw [six_steps]
  funext i
  obtain ⟨r, q, rfl⟩ : ∃ (r : Fin 65536) (q : Fin 128), i = ix2 r q := ⟨i 0, i 1, eq_ix2 i⟩
  rw [G_apply]
  have h := flowH_row (res_main_v6 V0) (wsT V0) (V0 (Proc.devRef .tc main_arg1)) r
  rw [proj_row] at h
  exact congrFun h q

/-- The same, over the memory the reference is launched from. -/
theorem result_run (m' : (ℓ : Loc nD τ sig) → Buf (Elt Ideal) ℓ) (c : Dev nD) :
    stepH (res_main_v6 (launchContents m' c)) (wsT (launchContents m' c)) (res_main_v211 (launchContents m' c))
      = G (m' ((c.tc : Thread nD τ).loc main_arg0)) (m' ((c.tc : Thread nD τ).loc main_arg1))
          (transpose S64x128 [1, 0]
            (extractStridedSlice S128x64 ![0, 0] (m' ((c.tc : Thread nD τ).loc main_arg2)) slices_S128x192_S128x64_0_0)
            transposes_S128x64_S64x128_1_0)
          (transpose S128x128 [1, 0]
            (extractStridedSlice S128x128 ![0, 64] (m' ((c.tc : Thread nD τ).loc main_arg2)) slices_S128x192_S128x128_0_64)
            transposes_S128x128_S128x128_1_0)
          (m' ((c.tc : Thread nD τ).loc main_arg3)) :=
  result_eq (launchContents m' c)

end Cert.ReferenceIdeal.Step

end
-- ==== Proof.lean ====
/-
  The kernel integrates a recurrent cell by six classical Runge–Kutta steps, one block of 2048 batch rows per grid
  point: the input projection `x·Wxᵀ + b` once per block, then per step four slopes `dt · tanh (x_proj + s·Wsᵀ)` and
  the update `s + (((k1 + 2·k2) + 2·k3) + k4) / 6`. The reference does the same on the whole batch at once. On the
  extended reals the two are one function of the arguments, entry by entry: the changes of float format before the
  kernel's products are the identity, a product into the zero accumulator and the host's product are the same sum over
  the contracted axis, the constants are the same words on both sides, and a row of the result depends only on the
  same row of the input and of the state — so cutting the batch into blocks of rows changes nothing. No law of
  arithmetic beyond that is used, and the precondition is never opened.

  Proof/Rk4Spec.lean states that function; Proof/KernelStep.lean and Proof/KernelValue.lean show the idealized kernel's
  result array is it (over the frame run of Proof/KernelIdealFrame.lean); Proof/RefStep.lean shows the reference's
  result is it (over the generated run). The two kernel frames are those of Proof/KernelFrame.lean and
  Proof/KernelIdealFrame.lean, the reference's is its generated run with the results dropped; the idealization rewrote
  nothing, so the preservation conjunct is trivial.
-/
import proofs.«154721_j5050881540422_1_alg».proof.Defs
import proofs.«154721_j5050881540422_1_alg».proof.Proof.Gen.Kernel
import proofs.«154721_j5050881540422_1_alg».proof.Proof.Gen.Kernel.Skeleton
import proofs.«154721_j5050881540422_1_alg».proof.Proof.Gen.Kernel.Launch
import proofs.«154721_j5050881540422_1_alg».proof.Proof.Gen.Kernel.Points
import proofs.«154721_j5050881540422_1_alg».proof.Proof.Gen.KernelIdeal
import proofs.«154721_j5050881540422_1_alg».proof.Proof.Gen.KernelIdeal.Skeleton
import proofs.«154721_j5050881540422_1_alg».proof.Proof.Gen.KernelIdeal.Launch
import proofs.«154721_j5050881540422_1_alg».proof.Proof.Gen.KernelIdeal.Points
import proofs.«154721_j5050881540422_1_alg».proof.Proof.Gen.ReferenceIdeal
import proofs.«154721_j5050881540422_1_alg».proof.Proof.Gen.ReferenceIdeal.Run
import proofs.«154721_j5050881540422_1_alg».proof.Proof.Gen.Pre_finite_inputs
import proofs.«154721_j5050881540422_1_alg».proof.Proof.KernelFrame
import proofs.«154721_j5050881540422_1_alg».proof.Proof.KernelIdealFrame
import proofs.«154721_j5050881540422_1_alg».proof.Proof.KernelValue
import proofs.«154721_j5050881540422_1_alg».proof.Proof.RefStep
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- So does the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the specification's array of the arguments in both results. -/
theorem algebraic : Cert.algebraic_KernelIdeal_ReferenceIdeal := by
  intro m ρ m' ρ' _ hagree
  refine ⟨fun c => Cert.KernelIdeal.Whole.Gm m c, fun c => Cert.KernelIdeal.Whole.Gm m c, ?_, ?_⟩
  · exact (θ_run Cert.KernelIdeal.defs _ _).mono (fun _ h c => ⟨(h c).1, (h c).1, (h c).2⟩)
      (Cert.KernelIdeal.Whole.run m ρ)
  · refine (θ_run Cert.ReferenceIdeal.defs _ _).mono (fun _ h c => ?_)
      (Cert.ReferenceIdeal.Value.run (F := Ideal) m' ρ')
    have e : Cert.ReferenceIdeal.Step.stepH (Cert.ReferenceIdeal.Value.res_main_v6 (StableHlo.launchContents m' c))
        (Cert.ReferenceIdeal.Step.wsT (StableHlo.launchContents m' c))
        (Cert.ReferenceIdeal.Value.res_main_v211 (StableHlo.launchContents m' c))
        = Cert.KernelIdeal.Whole.Gm m c := by
      refine (Cert.ReferenceIdeal.Step.result_run m' c).trans ?_
      rw [(hagree c).1, (hagree c).2.1, (hagree c).2.2.1, (hagree c).2.2.2]
      rfl
    exact ⟨(h c).1.trans e, (h c).2.1.trans e, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
